-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096 : Shape := ⟨2, ![2, 4096]⟩
abbrev S64x4096 : Shape := ⟨2, ![64, 4096]⟩
abbrev S4096x64 : Shape := ⟨2, ![4096, 64]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096 : S_.BroadcastsInDim S2x4096 (![] : Fin 0 → Fin S2x4096.rank)
  reducesTo_S2x4096_S_d0_1 : S2x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S2x4096x4096 .f32) (main_arg1 : FVec F S2x4096 .f32) (main_arg2 : FVec F S64x4096 .f32) (main_arg3 : FVec F S4096x64 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096 .f32 := Host.absf main_arg1
  let main_cst_0 : FVec F S_ .f32 := constant S_ .f32 0x7F800000#32
  let main_v5 : FVec F S2x4096 .f32 := broadcastInDim S2x4096 ![] bcast_S_S2x4096 main_cst_0
  let main_v6 : IVec S2x4096 1 := cmpf .olt main_v4 main_v5
  let main_c_1 : IVec S_ 1 := constantI S_ 1 1#1
  let main_v7 : IVec S_ 1 := (fun x v => Host.reduce IntOp.andi x v reducesTo_S2x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S2x4096x4096 : Shape := ⟨3, ![2, 4096, 4096]⟩
abbrev S2x4096 : Shape := ⟨2, ![2, 4096]⟩
abbrev S64x4096 : Shape := ⟨2, ![64, 4096]⟩
abbrev S4096x64 : Shape := ⟨2, ![4096, 64]⟩
abbrev S8192x4096 : Shape := ⟨2, ![8192, 4096]⟩
abbrev S8192x1 : Shape := ⟨2, ![8192, 1]⟩
abbrev S8192x64 : Shape := ⟨2, ![8192, 64]⟩
abbrev S1024x4096 : Shape := ⟨2, ![1024, 4096]⟩
abbrev S1024x1 : Shape := ⟨2, ![1024, 1]⟩
abbrev S1024x64 : Shape := ⟨2, ![1024, 64]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .f32⟩
  | .hbm, ⟨2, _⟩ => ⟨S64x4096, .f32⟩
  | .hbm, ⟨3, _⟩ => ⟨S4096x64, .f32⟩
  | .hbm, ⟨4, _⟩ => ⟨S8192x4096, .f32⟩
  | .hbm, ⟨5, _⟩ => ⟨S8192x1, .f32⟩
  | .hbm, ⟨6, _⟩ => ⟨S64x4096, .bf16⟩
  | .hbm, ⟨7, _⟩ => ⟨S4096x64, .bf16⟩
  | .hbm, ⟨8, _⟩ => ⟨S8192x64, .bf16⟩
  | .hbm, ⟨9, _⟩ => ⟨S8192x4096, .f32⟩
  | .hbm, ⟨10, _⟩ => ⟨S2x4096x4096, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S64x4096, .bf16⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .bf16⟩
  | .local _ .vmem, ⟨9, _⟩ => ⟨S4096x64, .bf16⟩
  | .local _ .vmem, ⟨10, _⟩ => ⟨S1024x4096, .f32⟩
  | .local _ .vmem, ⟨11, _⟩ => ⟨S1024x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2x4096x4096_S8192x4096 : S2x4096x4096.ShapeCasts S8192x4096
  shapeCasts_S2x4096_S8192x1 : S2x4096.ShapeCasts S8192x1
  bitsLt_bf16_f32 : FTy.bits .bf16 < FTy.bits .f32
  shapeCasts_S8192x4096_S2x4096x4096 : S8192x4096.ShapeCasts S2x4096x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  shapeCasts_S1024x64_S1024x64 : S1024x64.ShapeCasts S1024x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  dot_S1024x4096_S64x4096_S1024x64_1_1_0_0_n_n_wf : DotDims.WF S1024x4096 S64x4096 S1024x64 [1] [1] [0] [0] [] []
  dot_S1024x64_S4096x64_S1024x4096_1_1_0_0_n_n_wf : DotDims.WF S1024x64 S4096x64 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .bf16 = 32 ∨ (Rect.block (s := S8192x64) S1024x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .bf16 = 32 ∨ (Rect.block (s := S8192x64) S1024x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .bf16 = 32 ∨ (Rect.block (s := S4096x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S8192x4096.size a
  hwx1_2 : ∀ i : grid1.Coords, EltTy.bits .f32 = 32 ∨ (Rect.block (s := S8192x4096) S1024x4096.size (cc1_transform_2 i) (hinb1_2 i)).WholeWords (EltTy.packing .f32)

variable [Facts₀]

def dot_S1024x4096_S64x4096_S1024x64_1_1_0_0_n_n : DotDims S1024x4096 S64x4096 S1024x64 where
  lhsContracting := [1]
  rhsContracting := [1]
  lhsNonContracting := [0]
  rhsNonContracting := [0]
  lhsBatch := []
  rhsBatch := []
  wf := dot_S1024x4096_S64x4096_S1024x64_1_1_0_0_n_n_wf
def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.ofSpec (Memref.whole main_call0_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v4) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S2x4096 : Shape := ⟨2, ![2, 4096]⟩
abbrev S64x4096 : Shape := ⟨2, ![64, 4096]⟩
abbrev S4096x64 : Shape := ⟨2, ![4096, 64]⟩
abbrev S2x4096x64 : Shape := ⟨3, ![2, 4096, 64]⟩
abbrev S_ : Shape := ⟨0, ![]⟩
abbrev S2x4096x1 : Shape := ⟨3, ![2, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .f32⟩
  | .hbm, ⟨2, _⟩ => ⟨S64x4096, .f32⟩
  | .hbm, ⟨3, _⟩ => ⟨S4096x64, .f32⟩
  | .hbm, ⟨4, _⟩ => ⟨S2x4096x64, .f32⟩
  | .hbm, ⟨5, _⟩ => ⟨S2x4096x4096, .f32⟩
  | .hbm, ⟨6, _⟩ => ⟨S_, .f32⟩
  | .hbm, ⟨7, _⟩ => ⟨S2x4096x4096, .f32⟩
  | .hbm, ⟨8, _⟩ => ⟨S2x4096x4096, .f32⟩
  | .hbm, ⟨9, _⟩ => ⟨S_, .f32⟩
  | .hbm, ⟨10, _⟩ => ⟨S2x4096, .f32⟩
  | .hbm, ⟨11, _⟩ => ⟨S2x4096, .i1⟩
  | .hbm, ⟨12, _⟩ => ⟨S2x4096x1, .i1⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S_, .f32⟩
  | .hbm, ⟨17, _⟩ => ⟨S2x4096x4096, .i1⟩
  | .hbm, ⟨18, _⟩ => ⟨S2x4096x4096, .f32⟩
  | .hbm, ⟨19, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x4096_S64x4096_S2x4096x64_2_1_01_0_n_n_wf : DotDims.WF S2x4096x4096 S64x4096 S2x4096x64 [2] [1] [0, 1] [0] [] []
  dot_S2x4096x64_S4096x64_S2x4096x4096_2_1_01_0_n_n_wf : DotDims.WF S2x4096x64 S4096x64 S2x4096x4096 [2] [1] [0, 1] [0] [] []

variable [Facts₀]

def dot_S2x4096x4096_S64x4096_S2x4096x64_2_1_01_0_n_n : DotDims S2x4096x4096 S64x4096 S2x4096x64 where
  lhsContracting := [2]
  rhsContracting := [1]
  lhsNonContracting := [0, 1]
  rhsNonContracting := [0]
  lhsBatch := []
  rhsBatch := []
  wf := dot_S2x4096x4096_S64x4096_S2x4096x64_2_1_01_0_n_n_wf
def dot_S2x4096x64_S4096x64_S2x4096x4096_2_1_01_0_n_n : DotDims S2x4096x64 S4096x64 S2x4096x4096 where
  lhsContracting := [2]
  rhsContracting := [1]
  lhsNonContracting := [0, 1]
  rhsNonContracting := [0]
  lhsBatch := []
  rhsBatch := []
  wf := dot_S2x4096x64_S4096x64_S2x4096x4096_2_1_01_0_n_n_wf

class Facts : Prop extends Facts₀ where

variable [Facts]
-- ==== Proof.GateLaw.lean ====
/-
  The arithmetic that joins the two programs, on the extended reals, with no program in sight.

  One output entry of the kernel is  ∑ k, ((∑ d, X d * A k d) * gate t) * W k : the rank-64 bottleneck row
  (X against the rows of A) is scaled by the row's gate BEFORE the second contraction (against W).
  One output entry of the reference is  select (t ≠ 0) (t * ((∑ k, (∑ d, X d * A k d) * W k) * (1/8))) 0 :
  both contractions first, then the scaling, then the mask.
  Here gate t = t * (1/8) where t ≠ 0 and 0 where t = 0.

  The extended reals are not distributive (⊤ + ⊥ is a convention), so pulling the gate out of the sum over k is
  a law of REAL entries only: every entry is assumed to be a real number, the coercion is pushed outward, and
  the identity is one of finite real sums.
-/
import Idealize.ShloMosaic.PureOps.Ideal
import Idealize.ShloMosaic.PureOps.Ideal.Laws

noncomputable section

namespace Cert.LowRank

open Idealize.ShloMosaic

/-- The pattern of `0.125` denotes the real number 1/8. -/
theorem ofBits_eighth : Ideal.ofBits .f32 0x3E000000#32 = ((1 / 8 : ℝ) : EReal) := by
  simp [Ideal.ofBits, Ideal.ieee, -EReal.coe_mul]; norm_num

/-- The coercion of a finite sum of reals is the sum of the coercions. -/
theorem coe_sum {ι : Type} (s : Finset ι) (f : ι → ℝ) :
    ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- The row's gate: the weight times 1/8 where the weight is not zero, zero where it is. -/
def gate (t : EReal) : EReal :=
  Scalar.select (Ideal.cmp .one t (Ideal.ofBits .f32 0x00000000#32))
    (t * Ideal.ofBits .f32 0x3E000000#32) (Ideal.ofBits .f32 0x00000000#32)

/-- One entry as the kernel computes it: the bottleneck row gated, then contracted. -/
def gatedThenContracted {D K : Type} [Fintype D] [Fintype K]
    (X : D → EReal) (A : K → D → EReal) (W : K → EReal) (t : EReal) : EReal :=
  ∑ k, ((∑ d, X d * A k d) * gate t) * W k

/-- One entry as the reference computes it: both contractions, the 1/8, the weight, the mask. -/
def contractedThenGated {D K : Type} [Fintype D] [Fintype K]
    (X : D → EReal) (A : K → D → EReal) (W : K → EReal) (t : EReal) : EReal :=
  Scalar.select (Ideal.cmp .une t (Ideal.ofBits .f32 0x00000000#32))
    (t * ((∑ k, (∑ d, X d * A k d) * W k) * Ideal.ofBits .f32 0x3E000000#32))
    (Ideal.ofBits .f32 0x00000000#32)

/-- On real entries the two are equal: where the weight is zero both are zero; elsewhere the real factor t/8
    leaves the finite sum over k. -/
theorem gated_real {D K : Type} [Fintype D] [Fintype K]
    (X : D → ℝ) (A : K → D → ℝ) (W : K → ℝ) (t : ℝ) :
    gatedThenContracted (fun d => (X d : EReal)) (fun k d => (A k d : EReal)) (fun k => (W k : EReal)) (t : EReal)
      = contractedThenGated (fun d => (X d : EReal)) (fun k d => (A k d : EReal)) (fun k => (W k : EReal)) (t : EReal) := by
  unfold gatedThenContracted contractedThenGated gate
  simp only [Ideal.ofBits_zero_f32, ofBits_eighth, Ideal.cmp]
  by_cases ht : t = 0
  · subst ht
    simp [Scalar.select]
  · have hne : ((t : ℝ) : EReal) ≠ 0 := fun h => ht (by exact_mod_cast h)
    simp only [hne, ne_eq, not_false_eq_true, decide_true, BitVec.ofBool_true, Scalar.select]
    simp only [if_true, ← EReal.coe_mul, ← coe_sum]
    rw [EReal.coe_eq_coe_iff, Finset.sum_mul, Finset.mul_sum]
    exact Finset.sum_congr rfl fun k _ => by ring

/-- The same for extended-real entries each of which IS a real number: name the reals, then `gated_real`. -/
theorem gated_of_real {D K : Type} [Fintype D] [Fintype K]
    (X : D → EReal) (A : K → D → EReal) (W : K → EReal) (t : EReal)
    (hX : ∀ d, ∃ r : ℝ, X d = r) (hA : ∀ k d, ∃ r : ℝ, A k d = r) (hW : ∀ k, ∃ r : ℝ, W k = r)
    (ht : ∃ r : ℝ, t = r) :
    gatedThenContracted X A W t = contractedThenGated X A W t := by
  choose X' hX' using hX
  choose A' hA' using hA
  choose W' hW' using hW
  obtain ⟨t', rfl⟩ := ht
  obtain rfl : X = fun d => (X' d : EReal) := funext hX'
  obtain rfl : A = fun k d => (A' k d : EReal) := funext fun k => funext (hA' k)
  obtain rfl : W = fun k => (W' k : EReal) := funext hW'
  exact gated_real X' A' W' t'

end Cert.LowRank

end
-- ==== Proof.Spec.lean ====
/-
  The result array, stated once, index by index, over the four argument arrays (literal shapes; no program).

  x : [2, 4096, 4096] (batch, token, feature), tw : [2, 4096] (one weight per token), wa : [64, 4096], wb : [4096, 64].
  Entry (b, s, o) depends on the token's feature row x[b, s, ·], on all of wa, on row o of wb and on the token's weight:
  `viaReference` contracts twice and then scales and masks; `viaKernel` gates the rank-64 row between the two
  contractions. On arrays of real numbers they are the same array (GateLaw.gated_of_real).
-/
import proofs.«137882_g44822278701277_cont_8to1c4_472_13_alg».proof.Proof.GateLaw
import Idealize.ShloMosaic.Lib.ValueIdx

noncomputable section

namespace Cert.LowRank

open Idealize.ShloMosaic Idealize.ShloMosaic.ValueIdx

abbrev Sx : Shape := ⟨3, ![2, 4096, 4096]⟩
abbrev Stw : Shape := ⟨2, ![2, 4096]⟩
abbrev Swa : Shape := ⟨2, ![64, 4096]⟩
abbrev Swb : Shape := ⟨2, ![4096, 64]⟩

variable (x : Sx.Idx → EReal) (tw : Stw.Idx → EReal) (wa : Swa.Idx → EReal) (wb : Swb.Idx → EReal)

/-- Entry (b, s, o), contractions first. -/
def refAt (b : Fin 2) (s : Fin 4096) (o : Fin 4096) : EReal :=
  contractedThenGated (fun d : Fin 4096 => x (ix3 b s d)) (fun (k : Fin 64) (d : Fin 4096) => wa (ix2 k d))
    (fun k : Fin 64 => wb (ix2 o k)) (tw (ix2 b s))

/-- Entry (b, s, o), the bottleneck row gated between the contractions. -/
def kerAt (b : Fin 2) (s : Fin 4096) (o : Fin 4096) : EReal :=
  gatedThenContracted (fun d : Fin 4096 => x (ix3 b s d)) (fun (k : Fin 64) (d : Fin 4096) => wa (ix2 k d))
    (fun k : Fin 64 => wb (ix2 o k)) (tw (ix2 b s))

def viaReference : Sx.Idx → EReal := fun i => refAt x tw wa wb (i 0) (i 1) (i 2)
def viaKernel : Sx.Idx → EReal := fun i => kerAt x tw wa wb (i 0) (i 1) (i 2)

theorem viaReference_ix3 (b : Fin 2) (s o : Fin 4096) : viaReference x tw wa wb (ix3 b s o) = refAt x tw wa wb b s o := rfl
theorem viaKernel_ix3 (b : Fin 2) (s o : Fin 4096) : viaKernel x tw wa wb (ix3 b s o) = kerAt x tw wa wb b s o := rfl

/-- On arrays whose every entry is a real number the two arrays are one. -/
theorem viaKernel_eq_viaReference
    (hx : ∀ i, ∃ r : ℝ, x i = r) (htw : ∀ i, ∃ r : ℝ, tw i = r) (hwa : ∀ i, ∃ r : ℝ, wa i = r) (hwb : ∀ i, ∃ r : ℝ, wb i = r) :
    viaKernel x tw wa wb = viaReference x tw wa wb :=
  funext fun i => by
    show kerAt x tw wa wb (i 0) (i 1) (i 2) = refAt x tw wa wb (i 0) (i 1) (i 2)
    unfold kerAt refAt
    exact gated_of_real _ _ _ _ (fun _ => hx _) (fun _ _ => hwa _) (fun _ => hwb _) (htw _)

end Cert.LowRank

end
-- ==== Proof.Finite.lean ====
/-
  The precondition, decoded: every entry of each of the four arguments is a real number.

  `finite_inputs` is the conjunction, over the four arrays, of "all entries have absolute value below +∞". On the
  extended reals |x| = max x (-x), and the only values not below ⊤ in absolute value are ⊤ and ⊥ themselves; every
  other extended real is (the coercion of) a real.
-/
import proofs.«137882_g44822278701277_cont_8to1c4_472_13_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.LowRank

open Idealize.ShloMosaic Cert.Pre_finite_inputs

instance : Subsingleton S_.Idx := ⟨fun a b => funext fun d => d.elim0⟩

/-- The pattern `0x7F800000` denotes +∞. -/
theorem ofBits_inf : Ideal.ofBits .f32 0x7F800000#32 = ⊤ := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = r := by
  rw [ofBits_inf] at h
  induction x using EReal.rec with
  | bot => simp [Ideal.cmp] at h
  | top => simp [Ideal.cmp] at h
  | coe r => exact ⟨r, rfl⟩

variable [Facts]

/-- Where `finite_inputs` is all ones, each argument's every entry is a real number. -/
theorem real_entries (a0 : FVec Ideal S2x4096x4096 .f32) (a1 : FVec Ideal S2x4096 .f32) (a2 : FVec Ideal S64x4096 .f32)
    (a3 : FVec Ideal S4096x64 .f32) (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1, andi] at h0
  rw [IntOp.andi_eq_one, IntOp.andi_eq_one, IntOp.andi_eq_one] at h0
  obtain ⟨⟨⟨h3, h7⟩, h12⟩, h17⟩ := h0
  refine ⟨fun i => real_of_abs_lt _ ?_, fun i => real_of_abs_lt _ ?_, fun i => real_of_abs_lt _ ?_, fun i => real_of_abs_lt _ ?_⟩
  · exact Host.reduce_andi_all _ _ _ _ _ h3 i
  · exact Host.reduce_andi_all _ _ _ _ _ h7 i
  · exact Host.reduce_andi_all _ _ _ _ _ h12 i
  · exact Host.reduce_andi_all _ _ _ _ _ h17 i

end Cert.LowRank

end
-- ==== Proof.RefValue.lean ====
/-
  The reference read at an index: its last stage (the masked, weighted, scaled double contraction) is the
  specification's `viaReference` of the four arguments.

  Entry (b, s, o) of the select reads the token's weight at (b, s) for both the mask and the factor, and the product
  of the two contractions at (b, s, o): the inner one over the 4096 features d of x[b, s, d] * wa[k, d], the outer one
  over the 64 ranks k against wb[o, k]. The broadcasts only forget coordinates.
-/
import proofs.«137882_g44822278701277_cont_8to1c4_472_13_alg».proof.Proof.Gen.ReferenceIdeal.Read
import proofs.«137882_g44822278701277_cont_8to1c4_472_13_alg».proof.Proof.Spec

noncomputable section

namespace Cert.LowRank.Reference

open Idealize.ShloMosaic Idealize.ShloMosaic.ValueIdx Cert.ReferenceIdeal Cert.ReferenceIdeal.Read Cert.LowRank

/-- The weight's broadcast to [2, 4096, 1] and on to [2, 4096, 4096] reads the token (b, s). -/
theorem weight_idx (b : Fin 2) (s o : Fin 4096) : idx_main_v7 (idx_main_v8 (ix3 b s o)) = ix2 b s :=
  funext fun a => Fin.ext (by match a with | ⟨0, _⟩ => rfl | ⟨1, _⟩ => rfl)

/-- So does the mask's. -/
theorem mask_idx (b : Fin 2) (s o : Fin 4096) : idx_main_v6 (idx_main_call0_v0 (ix3 b s o)) = ix2 b s :=
  funext fun a => Fin.ext (by match a with | ⟨0, _⟩ => rfl | ⟨1, _⟩ => rfl)

/-- The outer contraction at (b, s, o), rank k: the bottleneck at (b, s, k) against wb at (o, k). -/
theorem outer_lhs (b : Fin 2) (s o : Fin 4096) (k : Fin 64) : lidx_main_v1 (ix3 b s o) k = ix3 b s k :=
  funext fun a => Fin.ext (by match a with | ⟨0, _⟩ => rfl | ⟨1, _⟩ => rfl | ⟨2, _⟩ => rfl)
theorem outer_rhs (b : Fin 2) (s o : Fin 4096) (k : Fin 64) : ridx_main_v1 (ix3 b s o) k = ix2 o k :=
  funext fun a => Fin.ext (by match a with | ⟨0, _⟩ => rfl | ⟨1, _⟩ => rfl)

/-- The inner contraction at (b, s, k), feature d: x at (b, s, d) against wa at (k, d). -/
theorem inner_lhs (b : Fin 2) (s : Fin 4096) (k : Fin 64) (d : Fin 4096) : lidx_main_v0 (ix3 b s k) d = ix3 b s d :=
  funext fun a => Fin.ext (by match a with | ⟨0, _⟩ => rfl | ⟨1, _⟩ => rfl | ⟨2, _⟩ => rfl)
theorem inner_rhs (b : Fin 2) (s : Fin 4096) (k : Fin 64) (d : Fin 4096) : ridx_main_v0 (ix3 b s k) d = ix2 k d :=
  funext fun a => Fin.ext (by match a with | ⟨0, _⟩ => rfl | ⟨1, _⟩ => rfl)

/-- The reference's result stage is `viaReference`. -/
theorem stage_eq (x0 : (⟨S2x4096x4096, .f32⟩ : BufTy).Contents (Elt Ideal)) (x1 : (⟨S2x4096, .f32⟩ : BufTy).Contents (Elt Ideal))
    (x2 : (⟨S64x4096, .f32⟩ : BufTy).Contents (Elt Ideal)) (x3 : (⟨S4096x64, .f32⟩ : BufTy).Contents (Elt Ideal)) :
    val_main_v10 (F := Ideal) x0 x1 x2 x3 = viaReference x0 x1 x2 x3 := by
  funext i
  obtain ⟨b, s, o, rfl⟩ : ∃ (b : Fin 2) (s o : Fin 4096), i = ix3 b s o := ⟨i 0, i 1, i 2, eq_ix3 i⟩
  rw [viaReference_ix3, val_main_v10_apply, val_main_call0_v0_apply, val_main_v6_apply, val_main_v5_apply, val_main_v4_apply,
    val_main_cst_0_apply, val_main_v9_apply, val_main_v8_apply, val_main_v7_apply, val_main_v3_apply, val_main_v2_apply,
    val_main_cst_apply, val_main_v1_apply, val_main_call0_v1_apply, val_main_cst_1_apply]
  simp only [val_main_v0_apply, weight_idx, mask_idx, outer_lhs, outer_rhs, inner_lhs, inner_rhs]
  unfold refAt contractedThenGated
  rfl

end Cert.LowRank.Reference

end
-- ==== Proof.KernelRun.lean ====
/-
  The kernel program's run with its RESULT array named.

  The program is four segments: the reshapes and format changes before the first call, the two pipelined calls,
  and the reshape after the second. The generated frame certificate follows the TensorCore's buffer contents through
  them (`W0` at launch … `W4` after the last reshape) but states, of the final state, only that the arguments are
  unchanged. The same run says more: EVERY unscoped buffer ends at `W4`'s contents, the result `main_v0` among them.
  So every weakly fair execution terminates with `main_v0` at `W4 … main_v0` and the arguments as launched.
-/
import proofs.«137882_g44822278701277_cont_8to1c4_472_13_alg».proof.Proof.Gen.KernelIdeal.Frame

set_option maxRecDepth 16384

noncomputable section

namespace Cert.LowRank.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the four arguments as launched. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.LowRank.Kernel

end
-- ==== Proof.HostSide.lean ====
/-
  The operations around the two calls, as values and read at an index.

  Before the first call: x [2, 4096, 4096] is viewed as 8192 token rows [8192, 4096], the weights [2, 4096] as a column
  [8192, 1], and wa, wb change format only (the identity on the extended reals). After the second call the 8192 rows of
  out are viewed as [2, 4096, 4096] again. A reshape keeps the row-major position, so token (b, s) is row 4096 b + s.
-/
import proofs.«137882_g44822278701277_cont_8to1c4_472_13_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.LowRank.Kernel

open Cert.KernelIdeal Cert.KernelIdeal.Gen
open Idealize.ShloMosaic Idealize.ShloMosaic.TcCoe Idealize.ShloMosaic.ValueIdx Idealize.SL.Sem Idealize.ShloMosaic.StableHlo

/-! ## The reshapes at an index -/

/-- Row 4096 b + s of the token-row view of x is token (b, s). -/
theorem token_row (x : S2x4096x4096.Idx → EReal) (b : Fin 2) (s d : Fin 4096) (r : Fin 8192) (hr : r.val = 4096 * b.val + s.val) :
    shapeCast S8192x4096 x shapeCasts_S2x4096x4096_S8192x4096 (ix2 r d) = x (ix3 b s d) :=
  shapeCast_apply x _ _ _ (by
    rw [Shape.rowMajor_val_three, Shape.rowMajor_val_two]
    show (b.val * 4096 + s.val) * 4096 + d.val = r.val * 4096 + d.val
    rw [hr]; omega)

/-- Entry 4096 b + s of the weights' column is the weight of token (b, s). -/
theorem token_weight (tw : S2x4096.Idx → EReal) (b : Fin 2) (s : Fin 4096) (r : Fin 8192) (u : Fin 1) (hr : r.val = 4096 * b.val + s.val) :
    shapeCast S8192x1 tw shapeCasts_S2x4096_S8192x1 (ix2 r u) = tw (ix2 b s) :=
  shapeCast_apply tw _ _ _ (by
    rw [Shape.rowMajor_val_two, Shape.rowMajor_val_two]
    show b.val * 4096 + s.val = r.val * 1 + u.val
    have hu : u.val = 0 := by omega
    rw [hr, hu]; omega)

/-- Token (b, s) of the result is row 4096 b + s of out. -/
theorem result_row (out : S8192x4096.Idx → EReal) (b : Fin 2) (s o : Fin 4096) (r : Fin 8192) (hr : r.val = 4096 * b.val + s.val) :
    shapeCast S2x4096x4096 out shapeCasts_S8192x4096_S2x4096x4096 (ix3 b s o) = out (ix2 r o) :=
  shapeCast_apply out _ _ _ (by
    rw [Shape.rowMajor_val_three, Shape.rowMajor_val_two]
    show r.val * 4096 + o.val = (b.val * 4096 + s.val) * 4096 + o.val
    rw [hr]; omega)

/-! ## The arrays at the segment boundaries -/

variable (m : (ℓ : Loc nD τ sig) → Buf (Elt Ideal) ℓ) (ρ : Dev nD → PrngReg)

/-- The first call finds x as token rows. -/
theorem entry_x (c : Dev nD) : (V1 m ρ c main_call0_v0 : S8192x4096.Idx → EReal)
    = shapeCast S8192x4096 (m ((c : Thread nD τ).loc main_arg0) : S2x4096x4096.Idx → EReal) shapeCasts_S2x4096x4096_S8192x4096 := by
  show StableHlo.after hostOps0 (W0 m ρ c) (Proc.devRef .tc main_call0_v0) = _
  after_results; rfl

/-- … the weights as a column, -/
theorem entry_tw (c : Dev nD) : (V1 m ρ c main_call0_v1 : S8192x1.Idx → EReal)
    = shapeCast S8192x1 (m ((c : Thread nD τ).loc main_arg1) : S2x4096.Idx → EReal) shapeCasts_S2x4096_S8192x1 := by
  show StableHlo.after hostOps0 (W0 m ρ c) (Proc.devRef .tc main_call0_v1) = _
  after_results; rfl

/-- … wa itself (the format change is the identity), -/
theorem entry_wa (c : Dev nD) : (V1 m ρ c main_call0_v2 : S64x4096.Idx → EReal) = (m ((c : Thread nD τ).loc main_arg2) : S64x4096.Idx → EReal) := by
  show StableHlo.after hostOps0 (W0 m ρ c) (Proc.devRef .tc main_call0_v2) = _
  after_results; rfl

/-- … and wb itself, which the first call does not touch: the second call finds it so. -/
theorem entry_wb (c : Dev nD) : (V2 m ρ c main_call0_v3 : S4096x64.Idx → EReal) = (m ((c : Thread nD τ).loc main_arg3) : S4096x64.Idx → EReal) := by
  show W2 m ρ c (Proc.devRef .tc main_call0_v3) = _
  rw [W2_of_ne m ρ c main_call0_v3 (by decide)]
  show StableHlo.after hostOps0 (W0 m ρ c) (Proc.devRef .tc main_call0_v3) = _
  after_results; rfl

/-- The second call finds, as h, what the first call's write-backs left. -/
theorem entry_h (c : Dev nD) : V2 m ρ c main_call0_v4 = (dat0 (V1 m ρ) c).arrAt 3 cfg0.N :=
  W2_arr m ρ c 3

/-- The result is the reshape of what the second call's write-backs left in out. -/
theorem exit_result (c : Dev nD) : (W4 m ρ c (Proc.devRef .tc main_v0) : S2x4096x4096.Idx → EReal)
    = shapeCast S2x4096x4096 ((dat1 (V2 m ρ) c).arrAt 2 cfg1.N : S8192x4096.Idx → EReal) shapeCasts_S8192x4096_S2x4096x4096 := by
  rw [← W3_arr m ρ c 2]
  show StableHlo.after hostOps2 (W3 m ρ c) (Proc.devRef .tc main_v0) = _
  after_results; rfl

end Cert.LowRank.Kernel

end
-- ==== Proof.Region0.lean ====
/-
  The first call: h[r, k] = (∑ d, x[r, d] * wa[k, d]) * gate(tw[r]) over the 4096 features d, for the 8192 token rows r
  and the 64 ranks k, where gate(t) = t/8 off zero and 0 at zero.

  The grid has eight points; point t stages rows 1024 t … 1024 t + 1023 of the token rows of x ([8192, 4096]) and of the
  weights' column ([8192, 1]) and the whole of wa ([64, 4096]), multiplies x's rows against wa's rows into a zero
  accumulator, scales each row by its gate (the column broadcast along the 64 ranks), and writes rows 1024 t … of h
  ([8192, 64]) back. So the block that point t writes is those rows of ONE function of the three arrays as the call finds
  them, and the eight row blocks tile h: after the call h IS that function (`firstCall`).
-/
import proofs.«137882_g44822278701277_cont_8to1c4_472_13_alg».proof.Proof.Gen.KernelIdeal.Frame
import proofs.«137882_g44822278701277_cont_8to1c4_472_13_alg».proof.Proof.GateLaw
import Idealize.ShloMosaic.Lib.Pipeline.Value
import Idealize.ShloMosaic.Lib.ValueIdx
import Idealize.ShloMosaic.PureOps.Ideal.Laws

set_option maxRecDepth 16384

noncomputable section

namespace Cert.LowRank.Kernel

open Cert.KernelIdeal Cert.KernelIdeal.Gen Cert.LowRank
open Idealize.ShloMosaic Idealize.ShloMosaic.TcCoe Idealize.ShloMosaic.ValueIdx Idealize.SL.Sem
open Idealize.ShloMosaic.Pipeline (Dat)

/-- h as one function of the token rows, the weights' column and wa. -/
def firstCall (x : S8192x4096.Idx → EReal) (tw : S8192x1.Idx → EReal) (wa : S64x4096.Idx → EReal) : S8192x64.Idx → EReal :=
  fun i => (∑ d : Fin 4096, x (ix2 (⟨(i 0).val, (i 0).isLt⟩ : Fin 8192) d) * wa (ix2 (⟨(i 1).val, (i 1).isLt⟩ : Fin 64) d))
    * gate (tw (ix2 (⟨(i 0).val, (i 0).isLt⟩ : Fin 8192) (0 : Fin 1)))

/-- The first call's contraction: axis 1 of the staged token rows against axis 1 of wa. -/
abbrev D0 : DotDims S1024x4096 S64x4096 S1024x64 := dot_S1024x4096_S64x4096_S1024x64_1_1_0_0_n_n

/-! ## The body's value at an entry -/

theorem d0_lhs0 (i : S1024x64.Idx) (q : D0.contr.Idx) : (D0.lhsIdx i q 0).val = (i 0).val := by
  unfold DotDims.lhsIdx
  rw [dif_neg (show ¬(0 : Fin S1024x4096.rank) ∈ D0.lhsBatch by decide), dif_pos (show (0 : Fin S1024x4096.rank) ∈ D0.lhsNonContracting by decide)]
  rfl
theorem d0_lhs1 (i : S1024x64.Idx) (q : D0.contr.Idx) : (D0.lhsIdx i q 1).val = (q ⟨0, by decide⟩).val :=
  D0.lhsIdx_val_of_single rfl i q
theorem d0_rhs0 (i : S1024x64.Idx) (q : D0.contr.Idx) : (D0.rhsIdx i q 0).val = (i 1).val := by
  unfold DotDims.rhsIdx
  rw [dif_neg (show ¬(0 : Fin S64x4096.rank) ∈ D0.rhsBatch by decide), dif_pos (show (0 : Fin S64x4096.rank) ∈ D0.rhsNonContracting by decide)]
  rfl
theorem d0_rhs1 (i : S1024x64.Idx) (q : D0.contr.Idx) : (D0.rhsIdx i q 1).val = (q ⟨0, by decide⟩).val :=
  D0.rhsIdx_val_of_single rfl i q

/-- Entry (p, q) of the product: staged token row p against row q of wa, over the 4096 features. -/
theorem first_product (x : FVec Ideal S1024x4096 .bf16) (a : FVec Ideal S64x4096 .bf16) (j : S1024x64.Idx) :
    FloatOps.matmul D0 none x a (constant S1024x64 .f32 0x00000000#32) j
      = ∑ d : Fin 4096, (x (ix2 (⟨(j 0).val, (j 0).isLt⟩ : Fin 1024) d) : EReal) * (a (ix2 (⟨(j 1).val, (j 1).isLt⟩ : Fin 64) d) : EReal) := by
  refine (Ideal.matmul_constant_zero_apply (φ₁ := .bf16) (φ₂ := .bf16) D0 none x a j).trans ?_
  rw [← Equiv.sum_comp (contrEquiv1 D0 4096 rfl rfl).symm]
  refine Finset.sum_congr rfl fun k _ => ?_
  have hk := contrEquiv1_symm_val D0 4096 rfl rfl k
  have el : D0.lhsIdx j ((contrEquiv1 D0 4096 rfl rfl).symm k) = ix2 (⟨(j 0).val, (j 0).isLt⟩ : Fin 1024) k := funext fun a => Fin.ext (by
    match a with
    | ⟨0, _⟩ => exact d0_lhs0 _ _
    | ⟨1, _⟩ => exact (d0_lhs1 _ _).trans hk)
  have er : D0.rhsIdx j ((contrEquiv1 D0 4096 rfl rfl).symm k) = ix2 (⟨(j 1).val, (j 1).isLt⟩ : Fin 64) k := funext fun a => Fin.ext (by
    match a with
    | ⟨0, _⟩ => exact d0_rhs0 _ _
    | ⟨1, _⟩ => exact (d0_rhs1 _ _).trans hk)
  rw [el, er]

/-- The gate column broadcast along the ranks reads the row's gate. -/
theorem gate_lane (g : FVec Ideal S1024x1 .f32) (j : S1024x64.Idx) :
    broadcastTo S1024x64 g broadcasts_S1024x1_S1024x64 j = g (ix2 (⟨(j 0).val, (j 0).isLt⟩ : Fin 1024) (0 : Fin 1)) :=
  broadcastTo_apply g _ j _ (fun a => by
    match a with
    | ⟨0, _⟩ => show (j 0).val = if (1024 : Nat) = 1 then 0 else (j 0).val; rw [if_neg (by decide)]
    | ⟨1, _⟩ => show 0 = if (1 : Nat) = 1 then 0 else (j 1).val; rw [if_pos rfl])

/-- Entry (p, q) of what the body stores. -/
theorem first_payload (x : FVec Ideal S1024x4096 .f32) (a : FVec Ideal S64x4096 .bf16) (tw : FVec Ideal S1024x1 .f32) (j : S1024x64.Idx) :
    k0_pay1 (F := Ideal) x a tw j
      = (∑ d : Fin 4096, (x (ix2 (⟨(j 0).val, (j 0).isLt⟩ : Fin 1024) d) : EReal) * (a (ix2 (⟨(j 1).val, (j 1).isLt⟩ : Fin 64) d) : EReal))
        * gate (tw (ix2 (⟨(j 0).val, (j 0).isLt⟩ : Fin 1024) (0 : Fin 1))) := by
  unfold k0_pay1
  dsimp only
  rw [shapeCast_self, shapeCast_self, shapeCast_self]
  have hp := first_product (truncf .bf16 x bitsLt_bf16_f32) a j
  have hg := gate_lane (select (cmpf .one tw (broadcast S1024x1 (FloatOps.ofBits .f32 0x00000000#32)))
    (mulf tw (broadcast S1024x1 (FloatOps.ofBits .f32 0x3E000000#32))) (broadcast S1024x1 (FloatOps.ofBits .f32 0x00000000#32))) j
  exact (congrArg₂ (fun u v : EReal => u * v) hp hg).trans rfl

/-! ## The blocks -/

variable (V : (c : Dev nD) → (b : Ref sig .tc) → Buf (Elt Ideal) ((c : Thread nD τ).loc b))

theorem no_offsets : (![0, 0] : Fin 2 → Nat) = fun _ => 0 := funext fun a => by fin_cases a <;> rfl

/-- The printed index maps over the eight points: the row block of the token rows, of the weights' column and of h is the
    point's number, wa is staged whole, and no window moves along its columns. -/
theorem first_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row y of the token rows staged at point t is row 1024 t + y. -/
theorem staged_x (c : Dev nD) (t : Fin cfg0.N) (y : S1024x4096.Idx) (i : S8192x4096.Idx)
    (h0 : (i 0).val = t.val * 1024 + (y 0).val) (h1 : (i 1).val = (y 1).val) :
    (iblk0 (F := Ideal) V c 0 t : S1024x4096.Idx → EReal) y = (V c main_call0_v0 : S8192x4096.Idx → EReal) i := by
  obtain ⟨e0, e1, -⟩ := first_index t
  unfold iblk0
  rw [View.read_apply]
  show (V c main_call0_v0 : S8192x4096.Idx → EReal) _ = V c main_call0_v0 _
  refine congrArg _ (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 4096 + 1 * (y 1).val = (i 1).val; rw [e1, h1]; omega

/-- Entry y of the weights staged at point t is entry 1024 t + y of the column. -/
theorem staged_tw (c : Dev nD) (t : Fin cfg0.N) (y : S1024x1.Idx) (i : S8192x1.Idx)
    (h0 : (i 0).val = t.val * 1024 + (y 0).val) (h1 : (i 1).val = (y 1).val) :
    (iblk0 (F := Ideal) V c 1 t : S1024x1.Idx → EReal) y = (V c main_call0_v1 : S8192x1.Idx → EReal) i := by
  obtain ⟨-, -, e0, e1, -⟩ := first_index t
  unfold iblk0
  rw [View.read_apply]
  show (V c main_call0_v1 : S8192x1.Idx → EReal) _ = V c main_call0_v1 _
  refine congrArg _ (funext fun a => Fin.ext ?_)
  match a with
  | ⟨0, _⟩ => show win0_1.index t (0 : Fin 2) * 1024 + 1 * (y 0).val = (i 0).val; rw [e0, h0]; omega
  | ⟨1, _⟩ => show win0_1.index t (1 : Fin 2) * 1 + 1 * (y 1).val = (i 1).val; rw [e1, h1]; omega

/-- wa is staged whole at every point. -/
theorem staged_wa (c : Dev nD) (t : Fin cfg0.N) (y : S64x4096.Idx) :
    (iblk0 (F := Ideal) V c 2 t : S64x4096.Idx → EReal) y = (V c main_call0_v2 : S64x4096.Idx → EReal) y := by
  obtain ⟨-, -, -, -, e0, e1, -⟩ := first_index t
  unfold iblk0
  rw [View.read_apply]
  show (V c main_call0_v2 : S64x4096.Idx → EReal) _ = V c main_call0_v2 _
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 4096 + 1 * (y 1).val = (y 1).val; rw [e1]; omega

/-- Entry j of what the body stores at point t is entry i of `firstCall`, when i is row 1024 t + j₀ and column j₁. -/
theorem first_block (c : Dev nD) (t : Fin cfg0.N) (j : S1024x64.Idx) (i : S8192x64.Idx)
    (h0 : (i 0).val = t.val * 1024 + (j 0).val) (h1 : (i 1).val = (j 1).val) :
    k0_pay1 (F := Ideal) (iblk0 V c 0 t) (iblk0 V c 2 t) (iblk0 V c 1 t) j
      = firstCall (V c main_call0_v0) (V c main_call0_v1) (V c main_call0_v2) i := by
  refine (first_payload (iblk0 V c 0 t) (iblk0 V c 2 t) (iblk0 V c 1 t) j).trans ?_
  unfold firstCall
  have hcol : (⟨(j 1).val, (j 1).isLt⟩ : Fin 64) = ⟨(i 1).val, (i 1).isLt⟩ := Fin.ext h1.symm
  rw [staged_tw V c t (ix2 (⟨(j 0).val, (j 0).isLt⟩ : Fin 1024) (0 : Fin 1)) (ix2 (⟨(i 0).val, (i 0).isLt⟩ : Fin 8192) (0 : Fin 1)) h0 rfl]
  refine congrArg (· * _) (Finset.sum_congr rfl fun d _ => ?_)
  rw [staged_x V c t (ix2 (⟨(j 0).val, (j 0).isLt⟩ : Fin 1024) d) (ix2 (⟨(i 0).val, (i 0).isLt⟩ : Fin 8192) d) h0 rfl,
    staged_wa V c t, hcol]

/-- What point t writes back is rows 1024 t … of `firstCall` of the arrays as the call finds them. -/
theorem first_flushed (c : Dev nD) (t : Fin cfg0.N) :
    (dat0 V c).flushed 3 t = ((cfg0.win 3).blk t).view.read (Elt Ideal)
      (firstCall (V c main_call0_v0) (V c main_call0_v1) (V c main_call0_v2)) := by
  show (cfg0.win 3).cut (grid0.coords t) ((dat0 V c).after 3 t) = _
  rw [after0_3]
  unfold out0_3
  rw [View.canon_unit_zero no_offsets]
  simp only [View.ld_unit_zero (S := S1024x4096) no_offsets, View.ld_unit_zero (S := S64x4096) no_offsets,
    View.ld_unit_zero (S := S1024x1) no_offsets]
  funext j
  obtain ⟨-, -, -, -, -, -, e6, e7⟩ := first_index t
  refine first_block V c t j (((cfg0.win 3).blk t).view.emb j) ?_ ?_
  · show win0_3.index t (0 : Fin 2) * 1024 + 1 * (j 0).val = _; rw [e6]; omega
  · show win0_3.index t (1 : Fin 2) * 64 + 1 * (j 1).val = _; rw [e7]; omega

/-! ## The eight row blocks tile h -/

/-- An entry of h is in point t's block iff each coordinate is in the block's range on its axis. -/
theorem first_mem (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_call0_v4).slice (win0_3.rect t)).set ↔ _
  rw [View.set_slice_whole, Rect.mem_set_unit]
  exact Iff.rfl

/-- Row r of h is written by point r / 1024. -/
theorem first_cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  obtain ⟨t, ht⟩ : ∃ t : Fin cfg0.N, t.val = (i 0).val / 1024 :=
    ⟨⟨(i 0).val / 1024, by rw [show cfg0.N = 8 from N_0]; omega⟩, rfl⟩
  refine ⟨t, flush0_3 t, ?_⟩
  rw [first_mem]
  obtain ⟨-, -, -, -, -, -, e6, e7⟩ := first_index t
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 64 ≤ (i 1).val ∧ (i 1).val < win0_3.index t (1 : Fin 2) * 64 + 64
    rw [e7]; omega

/-- After the first call, h is `firstCall` of the token rows, the weights' column and wa as the call found them. -/
theorem first_final (c : Dev nD) :
    (dat0 V c).arrAt 3 cfg0.N = firstCall (V c main_call0_v0) (V c main_call0_v1) (V c main_call0_v2) :=
  (dat0 V c).arrAt_eq_of_cover 3 _ (fun t _ => first_flushed V c t) first_cover

end Cert.LowRank.Kernel

end
-- ==== Proof.Region1.lean ====
/-
  The second call: out[r, o] = ∑ k, h[r, k] * wb[o, k] over the 64 ranks k, for the 8192 token rows r.

  The grid has eight points; point t stages rows 1024 t … 1024 t + 1023 of h ([8192, 64]) and the whole of wb
  ([4096, 64]), multiplies them into a zero accumulator and writes rows 1024 t … of out ([8192, 4096]) back.
  So the block of out that point t writes is the same rows of ONE function of the two arrays as the call finds them,
  and the eight row blocks tile out: after the call out IS that function (`secondCall`).
-/
import proofs.«137882_g44822278701277_cont_8to1c4_472_13_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.LowRank.Kernel

open Cert.KernelIdeal Cert.KernelIdeal.Gen
open Idealize.ShloMosaic Idealize.ShloMosaic.TcCoe Idealize.ShloMosaic.ValueIdx Idealize.SL.Sem
open Idealize.ShloMosaic.Pipeline (Dat)

/-- out as one function of h and wb. -/
def secondCall (h : S8192x64.Idx → EReal) (wb : S4096x64.Idx → EReal) : S8192x4096.Idx → EReal :=
  fun i => ∑ k : Fin 64, h (ix2 (⟨(i 0).val, (i 0).isLt⟩ : Fin 8192) k) * wb (ix2 (⟨(i 1).val, (i 1).isLt⟩ : Fin 4096) k)

/-- The second call's contraction: axis 1 of the staged rows against axis 1 of wb. -/
abbrev D1 : DotDims S1024x64 S4096x64 S1024x4096 := dot_S1024x64_S4096x64_S1024x4096_1_1_0_0_n_n

/-! ## The body's product at an entry -/

theorem d1_lhs0 (i : S1024x4096.Idx) (q : D1.contr.Idx) : (D1.lhsIdx i q 0).val = (i 0).val := by
  unfold DotDims.lhsIdx
  rw [dif_neg (show ¬(0 : Fin S1024x64.rank) ∈ D1.lhsBatch by decide), dif_pos (show (0 : Fin S1024x64.rank) ∈ D1.lhsNonContracting by decide)]
  rfl
theorem d1_lhs1 (i : S1024x4096.Idx) (q : D1.contr.Idx) : (D1.lhsIdx i q 1).val = (q ⟨0, by decide⟩).val :=
  D1.lhsIdx_val_of_single rfl i q
theorem d1_rhs0 (i : S1024x4096.Idx) (q : D1.contr.Idx) : (D1.rhsIdx i q 0).val = (i 1).val := by
  unfold DotDims.rhsIdx
  rw [dif_neg (show ¬(0 : Fin S4096x64.rank) ∈ D1.rhsBatch by decide), dif_pos (show (0 : Fin S4096x64.rank) ∈ D1.rhsNonContracting by decide)]
  rfl
theorem d1_rhs1 (i : S1024x4096.Idx) (q : D1.contr.Idx) : (D1.rhsIdx i q 1).val = (q ⟨0, by decide⟩).val :=
  D1.rhsIdx_val_of_single rfl i q

/-- Entry (p, q) of the body's product: row p of the staged rows of h against row q of wb. -/
theorem second_payload (h : FVec Ideal S1024x64 .bf16) (w : FVec Ideal S4096x64 .bf16) (j : S1024x4096.Idx) :
    k1_pay1 (F := Ideal) h w j
      = ∑ k : Fin 64, (h (ix2 (⟨(j 0).val, (j 0).isLt⟩ : Fin 1024) k) : EReal) * (w (ix2 (⟨(j 1).val, (j 1).isLt⟩ : Fin 4096) k) : EReal) := by
  unfold k1_pay1
  dsimp only
  rw [shapeCast_self, shapeCast_self]
  refine (Ideal.matmul_constant_zero_apply (φ₁ := .bf16) (φ₂ := .bf16) D1 none h w j).trans ?_
  rw [← Equiv.sum_comp (contrEquiv1 D1 64 rfl rfl).symm]
  refine Finset.sum_congr rfl fun k _ => ?_
  have hk := contrEquiv1_symm_val D1 64 rfl rfl k
  have el : D1.lhsIdx j ((contrEquiv1 D1 64 rfl rfl).symm k) = ix2 (⟨(j 0).val, (j 0).isLt⟩ : Fin 1024) k := funext fun a => Fin.ext (by
    match a with
    | ⟨0, _⟩ => exact d1_lhs0 _ _
    | ⟨1, _⟩ => exact (d1_lhs1 _ _).trans hk)
  have er : D1.rhsIdx j ((contrEquiv1 D1 64 rfl rfl).symm k) = ix2 (⟨(j 1).val, (j 1).isLt⟩ : Fin 4096) k := funext fun a => Fin.ext (by
    match a with
    | ⟨0, _⟩ => exact d1_rhs0 _ _
    | ⟨1, _⟩ => exact (d1_rhs1 _ _).trans hk)
  rw [el, er]

/-! ## The blocks -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the eight points: the row block of h and of out is the point's number, wb is staged
    whole, and no window moves along its columns. -/
theorem second_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row y of the rows of h staged at point t is row 1024 t + y of h. -/
theorem staged_h (c : Dev nD) (t : Fin cfg1.N) (y : S1024x64.Idx) (i : S8192x64.Idx)
    (h0 : (i 0).val = t.val * 1024 + (y 0).val) (h1 : (i 1).val = (y 1).val) :
    (iblk1 (F := Ideal) V c 0 t : S1024x64.Idx → EReal) y = (V c main_call0_v4 : S8192x64.Idx → EReal) i := by
  obtain ⟨e0, e1, -⟩ := second_index t
  unfold iblk1
  rw [View.read_apply]
  show (V c main_call0_v4 : S8192x64.Idx → EReal) _ = V c main_call0_v4 _
  refine congrArg _ (funext fun a => Fin.ext ?_)
  match a with
  | ⟨0, _⟩ => show win1_0.index t (0 : Fin 2) * 1024 + 1 * (y 0).val = (i 0).val; rw [e0, h0]; omega
  | ⟨1, _⟩ => show win1_0.index t (1 : Fin 2) * 64 + 1 * (y 1).val = (i 1).val; rw [e1, h1]; omega

/-- wb is staged whole at every point. -/
theorem staged_wb (c : Dev nD) (t : Fin cfg1.N) (y : S4096x64.Idx) :
    (iblk1 (F := Ideal) V c 1 t : S4096x64.Idx → EReal) y = (V c main_call0_v3 : S4096x64.Idx → EReal) y := by
  obtain ⟨-, -, e0, e1, -⟩ := second_index t
  unfold iblk1
  rw [View.read_apply]
  show (V c main_call0_v3 : S4096x64.Idx → EReal) _ = V c main_call0_v3 _
  refine congrArg _ (funext fun a => Fin.ext ?_)
  match a with
  | ⟨0, _⟩ => show win1_1.index t (0 : Fin 2) * 4096 + 1 * (y 0).val = (y 0).val; rw [e0]; omega
  | ⟨1, _⟩ => show win1_1.index t (1 : Fin 2) * 64 + 1 * (y 1).val = (y 1).val; rw [e1]; omega

/-- Entry j of the product at point t is entry i of `secondCall`, when i is row 1024 t + j₀ and column j₁. -/
theorem second_block (c : Dev nD) (t : Fin cfg1.N) (j : S1024x4096.Idx) (i : S8192x4096.Idx)
    (h0 : (i 0).val = t.val * 1024 + (j 0).val) (h1 : (i 1).val = (j 1).val) :
    k1_pay1 (F := Ideal) (iblk1 V c 0 t) (iblk1 V c 1 t) j = secondCall (V c main_call0_v4) (V c main_call0_v3) i := by
  refine (second_payload (iblk1 V c 0 t) (iblk1 V c 1 t) j).trans ?_
  unfold secondCall
  refine Finset.sum_congr rfl fun k _ => ?_
  have hcol : (⟨(j 1).val, (j 1).isLt⟩ : Fin 4096) = ⟨(i 1).val, (i 1).isLt⟩ := Fin.ext h1.symm
  rw [staged_h V c t (ix2 (⟨(j 0).val, (j 0).isLt⟩ : Fin 1024) k) (ix2 (⟨(i 0).val, (i 0).isLt⟩ : Fin 8192) k) h0 rfl,
    staged_wb V c t, hcol]

/-- What point t writes back is rows 1024 t … of `secondCall` of the arrays as the call finds them. -/
theorem second_flushed (c : Dev nD) (t : Fin cfg1.N) :
    (dat1 V c).flushed 2 t = ((cfg1.win 2).blk t).view.read (Elt Ideal) (secondCall (V c main_call0_v4) (V c main_call0_v3)) := by
  show (cfg1.win 2).cut (grid1.coords t) ((dat1 V c).after 2 t) = _
  rw [after1_2]
  unfold out1_2
  rw [View.canon_unit_zero zero_offsets]
  simp only [View.ld_unit_zero (S := S1024x64) zero_offsets, View.ld_unit_zero (S := S4096x64) zero_offsets]
  funext j
  obtain ⟨-, -, -, -, e4, e5⟩ := second_index t
  refine second_block V c t j (((cfg1.win 2).blk t).view.emb j) ?_ ?_
  · show win1_2.index t (0 : Fin 2) * 1024 + 1 * (j 0).val = _; rw [e4]; omega
  · show win1_2.index t (1 : Fin 2) * 4096 + 1 * (j 1).val = _; rw [e5]; omega

/-! ## The eight row blocks tile out -/

/-- An entry of out is in point t's block iff each coordinate is in the block's range on its axis. -/
theorem second_mem (t : Fin cfg1.N) (i : S8192x4096.Idx) :
    i ∈ ((cfg1.win 2).blk t).view.set ↔ ∀ a : Fin 2, win1_2.index t a * S1024x4096.size a ≤ (i a).val
      ∧ (i a).val < win1_2.index t a * S1024x4096.size a + S1024x4096.size a := by
  show i ∈ ((View.whole main_call0_v5).slice (win1_2.rect t)).set ↔ _
  rw [View.set_slice_whole, Rect.mem_set_unit]
  exact Iff.rfl

/-- Row r of out is written by point r / 1024. -/
theorem second_cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ : ∃ t : Fin cfg1.N, t.val = (i 0).val / 1024 :=
    ⟨⟨(i 0).val / 1024, by rw [show cfg1.N = 8 from N_1]; omega⟩, rfl⟩
  refine ⟨t, flush1_2 t, ?_⟩
  rw [second_mem]
  obtain ⟨-, -, -, -, e4, e5⟩ := second_index t
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 4096 ≤ (i 1).val ∧ (i 1).val < win1_2.index t (1 : Fin 2) * 4096 + 4096
    rw [e5]; omega

/-- After the second call, out is `secondCall` of h and wb as the call found them. -/
theorem second_final (c : Dev nD) :
    (dat1 V c).arrAt 2 cfg1.N = secondCall (V c main_call0_v4) (V c main_call0_v3) :=
  (dat1 V c).arrAt_eq_of_cover 2 _ (fun t _ => second_flushed V c t) second_cover

end Cert.LowRank.Kernel

end
-- ==== Proof.KernelValue.lean ====
/-
  The kernel program's result, as one function of the four arguments: `viaKernel`.

  Token (b, s), feature o of the result is row r = 4096 b + s, column o of out; that is ∑ k, h[r, k] * wb[o, k] (second call);
  h[r, k] is (∑ d, x2[r, d] * wa[k, d]) * gate(tw2[r]) (first call); and row r of the token rows x2 is x[b, s, ·], entry r of
  the weights' column tw2 is tw[b, s]. Put together: the specification's `kerAt`.
-/
import proofs.«137882_g44822278701277_cont_8to1c4_472_13_alg».proof.Proof.KernelRun
import proofs.«137882_g44822278701277_cont_8to1c4_472_13_alg».proof.Proof.HostSide
import proofs.«137882_g44822278701277_cont_8to1c4_472_13_alg».proof.Proof.Region0
import proofs.«137882_g44822278701277_cont_8to1c4_472_13_alg».proof.Proof.Region1
import proofs.«137882_g44822278701277_cont_8to1c4_472_13_alg».proof.Proof.Spec

set_option maxRecDepth 16384

noncomputable section

namespace Cert.LowRank.Kernel

open Cert.KernelIdeal Cert.KernelIdeal.Gen Cert.LowRank
open Idealize.ShloMosaic Idealize.ShloMosaic.TcCoe Idealize.ShloMosaic.ValueIdx Idealize.SL.Sem

/-- Row r, column o of out. -/
theorem secondCall_ix2 (h : S8192x64.Idx → EReal) (wb : S4096x64.Idx → EReal) (r : Fin 8192) (o : Fin 4096) :
    secondCall h wb (ix2 r o) = ∑ k : Fin 64, h (ix2 r k) * wb (ix2 o k) := rfl

/-- Row r, rank k of h. -/
theorem firstCall_ix2 (x : S8192x4096.Idx → EReal) (tw : S8192x1.Idx → EReal) (wa : S64x4096.Idx → EReal) (r : Fin 8192) (k : Fin 64) :
    firstCall x tw wa (ix2 r k) = (∑ d : Fin 4096, x (ix2 r d) * wa (ix2 k d)) * gate (tw (ix2 r (0 : Fin 1))) := rfl

variable (m : (ℓ : Loc nD τ sig) → Buf (Elt Ideal) ℓ) (ρ : Dev nD → PrngReg)

/-- The result array after the last reshape is `viaKernel` of the arguments as launched. -/
theorem result_eq (c : Dev nD) : (W4 m ρ c (Proc.devRef .tc main_v0) : S2x4096x4096.Idx → EReal)
    = viaKernel (m ((c : Thread nD τ).loc main_arg0)) (m ((c : Thread nD τ).loc main_arg1))
        (m ((c : Thread nD τ).loc main_arg2)) (m ((c : Thread nD τ).loc main_arg3)) := by
  funext i
  obtain ⟨b, s, o, rfl⟩ : ∃ (b : Fin 2) (s o : Fin 4096), i = ix3 b s o := ⟨i 0, i 1, i 2, eq_ix3 i⟩
  obtain ⟨r, hr⟩ : ∃ r : Fin 8192, r.val = 4096 * b.val + s.val :=
    ⟨⟨4096 * b.val + s.val, by have := b.isLt; have := s.isLt; omega⟩, rfl⟩
  rw [exit_result m ρ c, result_row _ b s o r hr, second_final (V2 m ρ) c, secondCall_ix2, viaKernel_ix3]
  unfold kerAt gatedThenContracted
  show (∑ k : Fin 64, _ : EReal) = ∑ k : Fin 64, _
  refine Finset.sum_congr rfl fun k _ => ?_
  rw [entry_h m ρ c, first_final (V1 m ρ) c, firstCall_ix2, entry_wb m ρ c, entry_x m ρ c, entry_tw m ρ c, entry_wa m ρ c,
    token_weight _ b s r 0 hr]
  refine congrArg (· * _) (congrArg (· * _) (Finset.sum_congr rfl fun d _ => ?_))
  rw [token_row _ b s d r hr]

/-- Every weakly fair execution of the kernel program terminates with the result at `viaKernel` of the arguments and the
    arguments unchanged. -/
theorem run : θ_run defs (onTc (τ := τ) (main (F := Ideal))) ⟨m, fun _ => 0, ρ⟩ (fun r => ∀ c : Dev nD,
      r.2.mem ((c.tc : Thread nD τ).loc main_v0)
        = viaKernel (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_result m ρ)

end Cert.LowRank.Kernel

end
-- ==== Proof.lean ====
/-
  A low-rank adapter with a per-token gate, computed two ways, is one function on the extended reals.

  Arguments: x [2, 4096, 4096] (batch, token, feature), a weight per token tw [2, 4096], wa [64, 4096], wb [4096, 64].
  The reference contracts x with wa over the 4096 features, the result with wb over the 64 ranks, multiplies by 1/8 and by
  the token's weight, and masks tokens whose weight is zero. The kernel runs two pipelined calls over the 8192 token rows:
  the first contracts with wa and scales each rank-64 row by the token's gate (weight/8, or 0 at weight zero), the second
  contracts with wb. Changes of float format are the identity here, and the constants are the same words on both sides.

  The two results agree entry by entry once the gate is pulled out of the sum over the 64 ranks, which is a law of real
  numbers, not of the extended reals: the precondition (every input entry finite) is what supplies it (Proof/GateLaw,
  Proof/Finite). The kernel's value is read off its run segment by segment (Proof/KernelRun, HostSide, Region0, Region1,
  KernelValue), the reference's off its run one operation at a time (Proof/RefValue); both are the array of Proof/Spec.

  The three frame claims: the two kernel programs' frames are the generated frame certificates; the reference's is its
  run with the result forgotten. The idealized kernel is the kernel's own text read at the extended reals (no rewrite was
  applied), so `preserves` has nothing to state.
-/
import proofs.«137882_g44822278701277_cont_8to1c4_472_13_alg».proof.Defs
import proofs.«137882_g44822278701277_cont_8to1c4_472_13_alg».proof.Proof.Gen.Kernel
import proofs.«137882_g44822278701277_cont_8to1c4_472_13_alg».proof.Proof.Gen.Kernel.Skeleton
import proofs.«137882_g44822278701277_cont_8to1c4_472_13_alg».proof.Proof.Gen.Kernel.Launch
import proofs.«137882_g44822278701277_cont_8to1c4_472_13_alg».proof.Proof.Gen.Kernel.Points
import proofs.«137882_g44822278701277_cont_8to1c4_472_13_alg».proof.Proof.Gen.Kernel.Frame
import proofs.«137882_g44822278701277_cont_8to1c4_472_13_alg».proof.Proof.Gen.KernelIdeal
import proofs.«137882_g44822278701277_cont_8to1c4_472_13_alg».proof.Proof.Gen.KernelIdeal.Skeleton
import proofs.«137882_g44822278701277_cont_8to1c4_472_13_alg».proof.Proof.Gen.KernelIdeal.Launch
import proofs.«137882_g44822278701277_cont_8to1c4_472_13_alg».proof.Proof.Gen.KernelIdeal.Points
import proofs.«137882_g44822278701277_cont_8to1c4_472_13_alg».proof.Proof.Gen.KernelIdeal.Frame
import proofs.«137882_g44822278701277_cont_8to1c4_472_13_alg».proof.Proof.Gen.ReferenceIdeal
import proofs.«137882_g44822278701277_cont_8to1c4_472_13_alg».proof.Proof.Gen.Pre_finite_inputs
import proofs.«137882_g44822278701277_cont_8to1c4_472_13_alg».proof.Proof.Gen.ReferenceIdeal.Run
import proofs.«137882_g44822278701277_cont_8to1c4_472_13_alg».proof.Proof.Gen.ReferenceIdeal.Read
import proofs.«137882_g44822278701277_cont_8to1c4_472_13_alg».proof.Proof.Spec
import proofs.«137882_g44822278701277_cont_8to1c4_472_13_alg».proof.Proof.Finite
import proofs.«137882_g44822278701277_cont_8to1c4_472_13_alg».proof.Proof.RefValue
import proofs.«137882_g44822278701277_cont_8to1c4_472_13_alg».proof.Proof.KernelValue
import Idealize.ShloMosaic.Adequacy
import Idealize.ShloMosaic.Init

noncomputable section

namespace Cert.Proof

open Idealize.ShloMosaic Idealize.ShloMosaic.TcCoe Idealize.SL.Sem Cert.LowRank

/-- The word-level kernel program runs and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the four arguments, all finite, both programs end with the same result array:
    the reference's double contraction, scaled, weighted and masked (`viaReference`). The kernel's run ends at
    `viaKernel`, which is that array on real entries. -/
theorem algebraic : Cert.algebraic_KernelIdeal_ReferenceIdeal := by
  intro m ρ m' ρ' hpre hagree
  refine ⟨fun c => viaReference (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.LowRank.Kernel.run m ρ)
    obtain ⟨h0, h1, h2, h3⟩ := real_entries _ _ _ _ (hpre c)
    exact viaKernel_eq_viaReference _ _ _ _ h0 h1 h2 h3
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, Cert.LowRank.Reference.stage_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
